-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S50000 : Shape := ⟨1, ![50000]⟩
abbrev S100000x256 : Shape := ⟨2, ![100000, 256]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : IVec S50000x16 32) (main_arg1 : IVec S2x800000 32) (main_arg2 : IVec S50000 32) (main_arg3 : FVec F S100000x256 .f32) (main_arg4 : FVec F S256x256 .f32) (main_arg5 : FVec F S256 .f32) (main_arg6 : FVec F S256x256 .f32) (main_arg7 : FVec F S256 .f32) : IVec S_ 1 :=
  let main_v0 : FVec F S100000x256 .f32 := Host.absf main_arg3
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg4
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg7 main_v13 main_v16
-- ==== Kernel.lean ====
abbrev S50000x16 : Shape := ⟨2, ![50000, 16]⟩
abbrev S2x800000 : Shape := ⟨2, ![2, 800000]⟩
abbrev S50000 : Shape := ⟨1, ![50000]⟩
abbrev S100000x256 : Shape := ⟨2, ![100000, 256]⟩
abbrev S256x256 : Shape := ⟨2, ![256, 256]⟩
abbrev S256 : Shape := ⟨1, ![256]⟩
abbrev S_ : Shape := ⟨0, ![]⟩
abbrev S50000x16x1 : Shape := ⟨3, ![50000, 16, 1]⟩
abbrev S50000x16x256 : Shape := ⟨3, ![50000, 16, 256]⟩
abbrev S50000x256 : Shape := ⟨2, ![50000, 256]⟩
abbrev S1x800000 : Shape := ⟨2, ![1, 800000]⟩
abbrev S800000 : Shape := ⟨1, ![800000]⟩
abbrev S800000x1 : Shape := ⟨2, ![800000, 1]⟩
abbrev S1x256 : Shape := ⟨2, ![1, 256]⟩
abbrev S5000x256 : Shape := ⟨2, ![5000, 256]⟩
abbrev S800000x256 : Shape := ⟨2, ![800000, 256]⟩
abbrev S50000x1 : Shape := ⟨2, ![50000, 1]⟩
abbrev S64x256 : Shape := ⟨2, ![64, 256]⟩

abbrev nBuf : Space → Nat
  | .hbm => 124
  | .vmem => 12
  | .smem => 0
  | _ => 0

abbrev bufTy : (tb : Table) → Fin (tcTables nBuf tb) → BufTy
  | .hbm, ⟨0, _⟩ => ⟨S50000x16, .i32⟩
  | .hbm, ⟨1, _⟩ => ⟨S2x800000, .i32⟩
  | .hbm, ⟨2, _⟩ => ⟨S50000, .i32⟩
  | .hbm, ⟨3, _⟩ => ⟨S100000x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S_, .i32⟩
  | .hbm, ⟨9, _⟩ => ⟨S50000x16, .i32⟩
  | .hbm, ⟨10, _⟩ => ⟨S50000x16, .i1⟩
  | .hbm, ⟨11, _⟩ => ⟨S_, .i32⟩
  | .hbm, ⟨12, _⟩ => ⟨S50000x16, .i32⟩
  | .hbm, ⟨13, _⟩ => ⟨S50000x16, .i32⟩
  | .hbm, ⟨14, _⟩ => ⟨S50000x16, .i32⟩
  | .hbm, ⟨15, _⟩ => ⟨S50000x16x1, .i32⟩
  | .hbm, ⟨16, _⟩ => ⟨S50000x16x256, .f32⟩
  | .hbm, ⟨17, _⟩ => ⟨S_, .f32⟩
  | .hbm, ⟨18, _⟩ => ⟨S50000x256, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S1x256, .f32⟩
  | .hbm, ⟨34, _⟩ => ⟨S50000x256, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000, .f32⟩
  | .hbm, ⟨53, _⟩ => ⟨S800000, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S800000x1, .f32⟩
  | .hbm, ⟨64, _⟩ => ⟨S800000x256, .f32⟩
  | .hbm, ⟨65, _⟩ => ⟨S800000x256, .f32⟩
  | .hbm, ⟨66, _⟩ => ⟨S_, .f32⟩
  | .hbm, ⟨67, _⟩ => ⟨S50000x256, .f32⟩
  | .hbm, ⟨68, _⟩ => ⟨S800000x1, .i32⟩
  | .hbm, ⟨69, _⟩ => ⟨S50000x256, .f32⟩
  | .hbm, ⟨70, _⟩ => ⟨S50000, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000, .f32⟩
  | .hbm, ⟨95, _⟩ => ⟨S800000, .f32⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S800000x256, .f32⟩
  | .hbm, ⟨105, _⟩ => ⟨S800000x1, .f32⟩
  | .hbm, ⟨106, _⟩ => ⟨S800000x256, .f32⟩
  | .hbm, ⟨107, _⟩ => ⟨S800000x256, .f32⟩
  | .hbm, ⟨108, _⟩ => ⟨S_, .f32⟩
  | .hbm, ⟨109, _⟩ => ⟨S50000x256, .f32⟩
  | .hbm, ⟨110, _⟩ => ⟨S800000x1, .i32⟩
  | .hbm, ⟨111, _⟩ => ⟨S50000x256, .f32⟩
  | .hbm, ⟨112, _⟩ => ⟨S50000, .f32⟩
  | .hbm, ⟨113, _⟩ => ⟨S50000x1, .f32⟩
  | .hbm, ⟨114, _⟩ => ⟨S50000x256, .f32⟩
  | .hbm, ⟨115, _⟩ => ⟨S50000x256, .f32⟩
  | .hbm, ⟨116, _⟩ => ⟨S50000x256, .f32⟩
  | .hbm, ⟨117, _⟩ => ⟨S_, .f32⟩
  | .hbm, ⟨118, _⟩ => ⟨S50000x256, .f32⟩
  | .hbm, ⟨119, _⟩ => ⟨S50000x256, .f32⟩
  | .hbm, ⟨120, _⟩ => ⟨S_, .f32⟩
  | .hbm, ⟨121, _⟩ => ⟨S64x256, .f32⟩
  | .hbm, ⟨122, _⟩ => ⟨S50000x1, .i32⟩
  | .hbm, ⟨123, _⟩ => ⟨S64x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | _, _ => ⟨S50000x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_call0_cst : Ref sig .tc := ⟨.hbm, 117, rfl⟩
abbrev main_call0_v0 : Ref sig .tc := ⟨.hbm, 118, rfl⟩
abbrev main_v89 : Ref sig .tc := ⟨.hbm, 119, rfl⟩
abbrev main_cst_18 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x256_S50000x256_d1 : S50000x16x256.ReducesTo [1] S50000x256
  h_S_ : 0 < S_.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S64x256 : S_.BroadcastsInDim S64x256 (![] : Fin 0 → Fin S64x256.rank)
  gather_S100000x256_S50000x16x1_S50000x16x256_2_0_n_n_0_2_1256_wf : GatherDims.WF S100000x256 S50000x16x1 S50000x16x256 [2] [0] [] [0] [] 2 ![1, 256]
  scatter_S50000_S800000x1_S800000_n_0_0_1_wf : ScatterDims.WF S50000 S800000x1 S800000 [] [0] [0] 1
  dot_S5000x256_S256x256_S5000x256_1_0_0_1_n_n_wf : DotDims.WF S5000x256 S256x256 S5000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64x256_S50000x1_S50000x256_1_0_0_1_wf : ScatterDims.WF S64x256 S50000x1 S50000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)

variable [Facts₀]

def gather_S100000x256_S50000x16x1_S50000x16x256_2_0_n_n_0_2_1256 : GatherDims S100000x256 S50000x16x1 S50000x16x256 where
  offsetDims := [2]
  collapsedSliceDims := [0]
  operandBatchingDims := []
  startIndicesBatchingDims := []
  startIndexMap := [0]
  indexVectorDim := 2
  sliceSizes := ![1, 256]
  wf := gather_S100000x256_S50000x16x1_S50000x16x256_2_0_n_n_0_2_1256_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf

abbrev win0_0 : Pipeline.Window sig grid0 :=
  Pipeline.Window.ofSpec (Memref.whole main_v7) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v53) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S50000 : Shape := ⟨1, ![50000]⟩
abbrev S100000x256 : Shape := ⟨2, ![100000, 256]⟩
abbrev S256x256 : Shape := ⟨2, ![256, 256]⟩
abbrev S256 : Shape := ⟨1, ![256]⟩
abbrev S_ : Shape := ⟨0, ![]⟩
abbrev S50000x16x1 : Shape := ⟨3, ![50000, 16, 1]⟩
abbrev S50000x16x256 : Shape := ⟨3, ![50000, 16, 256]⟩
abbrev S50000x256 : Shape := ⟨2, ![50000, 256]⟩
abbrev S1x800000 : Shape := ⟨2, ![1, 800000]⟩
abbrev S800000 : Shape := ⟨1, ![800000]⟩
abbrev S800000x1 : Shape := ⟨2, ![800000, 1]⟩
abbrev S1x256 : Shape := ⟨2, ![1, 256]⟩
abbrev S800000x256 : Shape := ⟨2, ![800000, 256]⟩
abbrev S50000x1 : Shape := ⟨2, ![50000, 1]⟩
abbrev S64x256 : Shape := ⟨2, ![64, 256]⟩

abbrev nBuf : Space → Nat
  | .hbm => 131
  | .vmem => 0
  | .smem => 0
  | _ => 0

abbrev hbmTy0_0 (i : Nat) : BufTy := match i % 128 with
  | 0 => ⟨S50000x16, .i32⟩
  | 1 => ⟨S2x800000, .i32⟩
  | 2 => ⟨S50000, .i32⟩
  | 3 => ⟨S100000x256, .f32⟩
  | 4 => ⟨S256x256, .f32⟩
  | 5 => ⟨S256, .f32⟩
  | 6 => ⟨S256x256, .f32⟩
  | 7 => ⟨S256, .f32⟩
  | 8 => ⟨S_, .i32⟩
  | 9 => ⟨S50000x16, .i32⟩
  | 10 => ⟨S50000x16, .i1⟩
  | 11 => ⟨S_, .i32⟩
  | 12 => ⟨S50000x16, .i32⟩
  | 13 => ⟨S50000x16, .i32⟩
  | 14 => ⟨S50000x16, .i32⟩
  | 15 => ⟨S50000x16x1, .i32⟩
  | 16 => ⟨S50000x16x256, .f32⟩
  | 17 => ⟨S_, .f32⟩
  | 18 => ⟨S50000x256, .f32⟩
  | 19 => ⟨S1x800000, .i32⟩
  | 20 => ⟨S800000, .i32⟩
  | 21 => ⟨S1x800000, .i32⟩
  | 22 => ⟨S800000, .i32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S50000x256, .f32⟩
  | 34 => ⟨S1x256, .f32⟩
  | 35 => ⟨S50000x256, .f32⟩
  | 36 => ⟨S50000x256, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x256, .f32⟩
  | 65 => ⟨S800000x1, .f32⟩
  | 66 => ⟨S800000x256, .f32⟩
  | 67 => ⟨S800000x256, .f32⟩
  | 68 => ⟨S_, .f32⟩
  | 69 => ⟨S50000x256, .f32⟩
  | 70 => ⟨S800000x1, .i32⟩
  | 71 => ⟨S50000x256, .f32⟩
  | 72 => ⟨S50000, .f32⟩
  | 73 => ⟨S50000x1, .f32⟩
  | 74 => ⟨S50000x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x256, .f32⟩
  | 112 => ⟨S800000x1, .f32⟩
  | 113 => ⟨S800000x256, .f32⟩
  | 114 => ⟨S800000x256, .f32⟩
  | 115 => ⟨S_, .f32⟩
  | 116 => ⟨S50000x256, .f32⟩
  | 117 => ⟨S800000x1, .i32⟩
  | 118 => ⟨S50000x256, .f32⟩
  | 119 => ⟨S50000, .f32⟩
  | 120 => ⟨S50000x1, .f32⟩
  | 121 => ⟨S50000x256, .f32⟩
  | 122 => ⟨S50000x256, .f32⟩
  | 123 => ⟨S50000x256, .f32⟩
  | 124 => ⟨S_, .f32⟩
  | 125 => ⟨S50000x256, .f32⟩
  | 126 => ⟨S50000x256, .f32⟩
  | 127 => ⟨S_, .f32⟩
  | _ => ⟨S50000x16, .i32⟩

abbrev hbmTy0_1 (i : Nat) : BufTy := match i % 128 with
  | 0 => ⟨S64x256, .f32⟩
  | 1 => ⟨S50000x1, .i32⟩
  | 2 => ⟨S64x256, .f32⟩
  | _ => ⟨S50000x16, .i32⟩

abbrev hbmTy (i : Nat) : BufTy := match i / 128 with
  | 0 => hbmTy0_0 i
  | 1 => hbmTy0_1 i
  | _ => ⟨S50000x16, .i32⟩

abbrev bufTy : (tb : Table) → Fin (tcTables nBuf tb) → BufTy
  | .hbm, ⟨i, _⟩ => hbmTy i
  | _, _ => ⟨S50000x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call0_cst : Ref sig .tc := ⟨.hbm, 77, rfl⟩
abbrev main_call0_v0 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_call1_cst : Ref sig .tc := ⟨.hbm, 124, rfl⟩
abbrev main_call1_v0 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩

abbrev nD : Nat := 1
abbrev τ : Topo := Topo.v7x

variable {F : FTy → Type} [FloatOps F]

class Facts₀ : Prop where
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x256_S50000x256_d1 : S50000x16x256.ReducesTo [1] S50000x256
  h_S_ : 0 < S_.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S64x256 : S_.BroadcastsInDim S64x256 (![] : Fin 0 → Fin S64x256.rank)
  gather_S100000x256_S50000x16x1_S50000x16x256_2_0_n_n_0_2_1256_wf : GatherDims.WF S100000x256 S50000x16x1 S50000x16x256 [2] [0] [] [0] [] 2 ![1, 256]
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64x256_S50000x1_S50000x256_1_0_0_1_wf : ScatterDims.WF S64x256 S50000x1 S50000x256 [1] [0] [0] 1

variable [Facts₀]

def gather_S100000x256_S50000x16x1_S50000x16x256_2_0_n_n_0_2_1256 : GatherDims S100000x256 S50000x16x1 S50000x16x256 where
  offsetDims := [2]
  collapsedSliceDims := [0]
  operandBatchingDims := []
  startIndicesBatchingDims := []
  startIndexMap := [0]
  indexVectorDim := 2
  sliceSizes := ![1, 256]
  wf := gather_S100000x256_S50000x16x1_S50000x16x256_2_0_n_n_0_2_1256_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf

class Facts : Prop extends Facts₀ where

variable [Facts]
-- ==== Proof.RunValue.lean ====
/-
  The idealized kernel's run, with its result named.

  The program is seven segments — a stretch of host operations, the first dense layer's region, a second stretch, the
  second layer's region, and three closing stretches — and the buffer contents at each boundary are a fold from the launch
  memory: `W1` after the first stretch, `W2` at the first region's exit (its arrays at what its write-backs leave),
  `W3`, `W4` likewise for the second, and `W7` at the return.  Every weakly fair execution terminates with each unscoped
  buffer at `W7`; read at the result buffer and at the eight arguments, that is the statement below.  What `W7` holds
  at the result, as a function of the arguments, is the business of the other modules.
-/
import proofs.«151953_j7078106104245_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel terminates, nothing faulting, with the result buffer at the last
    boundary's contents `W7` and the argument arrays as launched. -/
theorem run_named : θ_run defs (onTc (τ := τ) (main (F := F))) ⟨m, fun _ => 0, ρ⟩ (fun r => ∀ c : Dev nD,
      r.2.mem ((c.tc : Thread nD τ).loc main_v92) = W7 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v92 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.RunValue

end
-- ==== Proof.HostA.lean ====
/-
  The kernel's first stretch of host operations, read at the buffers the rest of the program uses.

  Before its first region the kernel program sums the sixteen gathered embedding rows of every node, slices the edge list
  into sources and targets, counts each node's incoming edges by a scatter-add of ones, and takes the reciprocal square
  root of the count plus one; it also re-lays the first bias as a 1×256 row.  The reference performs the same
  operations, in the same order, on the same arguments, so what each of these buffers holds after the stretch IS the
  reference's stage function of the arguments: the two terms are one and the same composition of operations.  A buffer
  the stretch does not write holds what it held at launch.
-/
import proofs.«151953_j7078106104245_2_alg».proof.Proof.Gen.KernelIdeal.Frame
import proofs.«151953_j7078106104245_2_alg».proof.Proof.Gen.ReferenceIdeal.Read
import Idealize.ShloMosaic.Lib.ValueLayout

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- A buffer no operation of a stretch writes holds after the stretch what it held before. -/
macro "not_written" ops:ident : tactic =>
  `(tactic| (refine StableHlo.after_of_forall_not_mem _ _ (List.forall_iff_forall_mem.mp ?_)
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-- The summed embeddings. -/
theorem W1_v7 (c : Dev nD) : W1 (F := Ideal) m ρ c (Proc.devRef .tc main_v7) = Cert.ReferenceIdeal.Read.val_main_v7 (F := Ideal) (m ((c : Thread nD τ).loc main_arg0)) (m ((c : Thread nD τ).loc main_arg3)) := by
  show StableHlo.after hostOps0 (W0 m ρ c) (Proc.devRef .tc main_v7) = _
  after_results
  rfl

/-- The edges' sources. -/
theorem W1_v9 (c : Dev nD) : W1 (F := Ideal) m ρ c (Proc.devRef .tc main_v9) = Cert.ReferenceIdeal.Read.val_main_v9 (F := Ideal) (m ((c : Thread nD τ).loc main_arg1)) := by
  show StableHlo.after hostOps0 (W0 m ρ c) (Proc.devRef .tc main_v9) = _
  after_results
  rfl

/-- The edges' targets. -/
theorem W1_v11 (c : Dev nD) : W1 (F := Ideal) m ρ c (Proc.devRef .tc main_v11) = Cert.ReferenceIdeal.Read.val_main_v11 (F := Ideal) (m ((c : Thread nD τ).loc main_arg1)) := by
  show StableHlo.after hostOps0 (W0 m ρ c) (Proc.devRef .tc main_v11) = _
  after_results
  rfl

/-- The reciprocal square root of each node's degree (incoming edges plus one). -/
theorem W1_v18 (c : Dev nD) : W1 (F := Ideal) m ρ c (Proc.devRef .tc main_v18) = Cert.ReferenceIdeal.Read.val_main_v18 (F := Ideal) (m ((c : Thread nD τ).loc main_arg1)) := by
  show StableHlo.after hostOps0 (W0 m ρ c) (Proc.devRef .tc main_v18) = _
  after_results
  rfl

/-- The first bias as a 1×256 row: its entry `(0, j)` is the bias's entry `j`. -/
theorem W1_v19 (c : Dev nD) (j : Fin 256) :
    W1 (F := Ideal) m ρ c (Proc.devRef .tc main_v19) (ValueIdx.ix2 (0 : Fin 1) j) = (m ((c : Thread nD τ).loc main_arg5)) (ValueIdx.ix1 j) := by
  show StableHlo.after hostOps0 (W0 m ρ c) (Proc.devRef .tc main_v19) _ = _
  after_results
  exact ValueIdx.shapeCast_a_1a_apply (a := 256) (m ((c : Thread nD τ).loc main_arg5)) shapeCasts_S256_S1x256 (0 : Fin 1) j

/-- The arguments the later segments read are as launched. -/
theorem W1_arg2 (c : Dev nD) : W1 (F := Ideal) m ρ c (Proc.devRef .tc main_arg2) = (m ((c : Thread nD τ).loc main_arg2)) := by
  show StableHlo.after hostOps0 (W0 m ρ c) (Proc.devRef .tc main_arg2) = _
  not_written hostOps0
theorem W1_arg4 (c : Dev nD) : W1 (F := Ideal) m ρ c (Proc.devRef .tc main_arg4) = (m ((c : Thread nD τ).loc main_arg4)) := by
  show StableHlo.after hostOps0 (W0 m ρ c) (Proc.devRef .tc main_arg4) = _
  not_written hostOps0
theorem W1_arg6 (c : Dev nD) : W1 (F := Ideal) m ρ c (Proc.devRef .tc main_arg6) = (m ((c : Thread nD τ).loc main_arg6)) := by
  show StableHlo.after hostOps0 (W0 m ρ c) (Proc.devRef .tc main_arg6) = _
  not_written hostOps0
theorem W1_arg7 (c : Dev nD) : W1 (F := Ideal) m ρ c (Proc.devRef .tc main_arg7) = (m ((c : Thread nD τ).loc main_arg7)) := by
  show StableHlo.after hostOps0 (W0 m ρ c) (Proc.devRef .tc main_arg7) = _
  not_written hostOps0

end Cert.KernelIdeal.Chain

end
-- ==== Proof.LinSpec.lean ====
/-
  One dense layer of the network, as a function of whole arrays, index by index, on the extended reals.

  Both programs compute, twice, `y = x · W + b` for a 50000×256 array `x`, a 256×256 weight `W` and a bias row `b`
  (the second time on `max x 0`).  At the ideal instance a rounding to bf16 is the identity and a matrix product into a
  zero accumulator is the plain sum over the contracted axis, so entry `(r, j)` of the result is
  `∑ k, x (r, k) · W (k, j) + b (0, j)`: that function is `lin`; `relu` is the entrywise maximum with the zero word.
  The float literal is kept as its word: the same word stands on both sides of every equation and is never evaluated.
-/
import Idealize.ShloMosaic.PureOps.Ideal
import Idealize.ShloMosaic.Lib.ValueIdx

noncomputable section

namespace Cert.LinSpec

open Idealize.ShloMosaic Idealize.ShloMosaic.ValueIdx

/-- Entry `(r, j)` of `x · W + b`: row `r` of `x` against column `j` of `W`, plus the bias row's entry at column `j`. -/
def lin (x : FVec Ideal ⟨2, ![50000, 256]⟩ .f32) (W : FVec Ideal ⟨2, ![256, 256]⟩ .f32) (b : FVec Ideal ⟨2, ![1, 256]⟩ .f32) :
    FVec Ideal ⟨2, ![50000, 256]⟩ .f32 :=
  fun i => (∑ k : Fin 256, x (ix2 (i 0) k) * W (ix2 k (i 1))) + b (ix2 (0 : Fin 1) (i 1))

/-- The entrywise maximum with the zero word. -/
def relu (y : FVec Ideal ⟨2, ![50000, 256]⟩ .f32) : FVec Ideal ⟨2, ![50000, 256]⟩ .f32 :=
  fun i => max (y i) (FloatOps.ofBits (F := Ideal) .f32 0x00000000#32)

end Cert.LinSpec

end
-- ==== Proof.RefLin.lean ====
/-
  The reference's two dense layers are `lin`.

  The reference computes a layer as a host contraction `x · W` over the shared axis, then adds the bias after
  broadcasting it first to a 1×256 row and then down the 50000 rows.  Read at an index `(r, j)` (the generated
  read-at-an-index lemmas, chained outermost first) that is `∑ k, x (r, k) · W (k, j)` plus the bias's entry `j`: the
  function `lin` at any 1×256 bias row whose entry `(0, j)` is the bias's entry `j`.  The second layer is applied to the
  entrywise maximum of the first layer's combined output with the zero word, which is `relu` of it.
-/
import proofs.«151953_j7078106104245_2_alg».proof.Proof.Gen.ReferenceIdeal.Read
import proofs.«151953_j7078106104245_2_alg».proof.Proof.LinSpec

noncomputable section

namespace Cert.ReferenceIdeal.RefLin

open Idealize.ShloMosaic Idealize.ShloMosaic.ValueIdx Idealize.SL.Sem
open Cert.ReferenceIdeal Cert.ReferenceIdeal.Gen Cert.ReferenceIdeal.Read Cert.LinSpec

/-- The first layer: the contraction of the summed embeddings with the first weight, plus the first bias. -/
theorem layer0 (x0 : (⟨S50000x16, .i32⟩ : BufTy).Contents (Elt Ideal)) (x3 : (⟨S100000x256, .f32⟩ : BufTy).Contents (Elt Ideal)) (x4 : (⟨S256x256, .f32⟩ : BufTy).Contents (Elt Ideal)) (x5 : (⟨S256, .f32⟩ : BufTy).Contents (Elt Ideal))
    (b : FVec Ideal ⟨2, ![1, 256]⟩ .f32) (hb : ∀ j : Fin 256, b (ix2 (0 : Fin 1) j) = x5 (ix1 j)) :
    lin (val_main_v7 (F := Ideal) x0 x3) x4 b = val_main_v22 (F := Ideal) x0 x3 x4 x5 := by
  funext i
  rw [val_main_v22_apply, val_main_v19_apply, val_main_v21_apply, val_main_v20_apply]
  generalize val_main_v7 (F := Ideal) x0 x3 = y
  unfold lin
  rw [Ideal.addf_def]
  have e1 : ∀ k : Fin 256, lidx_main_v19 i k = ix2 (i 0) k := fun k => funext fun a => by
    match a with
    | ⟨0, _⟩ => rfl
    | ⟨1, _⟩ => rfl
  have e2 : ∀ k : Fin 256, ridx_main_v19 i k = ix2 k (i 1) := fun k => funext fun a => by
    match a with
    | ⟨0, _⟩ => rfl
    | ⟨1, _⟩ => rfl
  have e3 : idx_main_v20 (idx_main_v21 i) = ix1 (i 1) := funext fun a => by
    match a with
    | ⟨0, _⟩ => rfl
  refine congrArg₂ (· + ·) (Finset.sum_congr rfl fun k _ => ?_) ?_
  · exact congrArg₂ (· * ·) (congrArg y (e1 k).symm) (congrArg x4 (e2 k).symm)
  · exact (hb (i 1)).trans (congrArg x5 e3.symm)

/-- The maximum with the called function's broadcast zero constant is `relu`. -/
theorem relu_eq (x0 : (⟨S50000x16, .i32⟩ : BufTy).Contents (Elt Ideal)) (x1 : (⟨S2x800000, .i32⟩ : BufTy).Contents (Elt Ideal)) (x3 : (⟨S100000x256, .f32⟩ : BufTy).Contents (Elt Ideal)) (x4 : (⟨S256x256, .f32⟩ : BufTy).Contents (Elt Ideal)) (x5 : (⟨S256, .f32⟩ : BufTy).Contents (Elt Ideal)) :
    val_main_v56 (F := Ideal) x0 x1 x3 x4 x5 = relu (val_main_v55 (F := Ideal) x0 x1 x3 x4 x5) := by
  funext j
  rw [val_main_v56_apply]
  generalize val_main_v55 (F := Ideal) x0 x1 x3 x4 x5 = y
  unfold relu
  rw [Ideal.maximumf_def]
  rfl

/-- The second layer: the contraction of the rectified first combination with the second weight, plus the second bias. -/
theorem layer1 (x0 : (⟨S50000x16, .i32⟩ : BufTy).Contents (Elt Ideal)) (x1 : (⟨S2x800000, .i32⟩ : BufTy).Contents (Elt Ideal)) (x3 : (⟨S100000x256, .f32⟩ : BufTy).Contents (Elt Ideal)) (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (b : FVec Ideal ⟨2, ![1, 256]⟩ .f32) (hb : ∀ j : Fin 256, b (ix2 (0 : Fin 1) j) = x7 (ix1 j)) :
    lin (relu (val_main_v55 (F := Ideal) x0 x1 x3 x4 x5)) x6 b = val_main_v60 (F := Ideal) x0 x1 x3 x4 x5 x6 x7 := by
  funext i
  rw [val_main_v60_apply, val_main_v57_apply, val_main_v59_apply, val_main_v58_apply, relu_eq]
  generalize relu (val_main_v55 (F := Ideal) x0 x1 x3 x4 x5) = y
  unfold lin
  rw [Ideal.addf_def]
  have e1 : ∀ k : Fin 256, lidx_main_v57 i k = ix2 (i 0) k := fun k => funext fun a => by
    match a with
    | ⟨0, _⟩ => rfl
    | ⟨1, _⟩ => rfl
  have e2 : ∀ k : Fin 256, ridx_main_v57 i k = ix2 k (i 1) := fun k => funext fun a => by
    match a with
    | ⟨0, _⟩ => rfl
    | ⟨1, _⟩ => rfl
  have e3 : idx_main_v58 (idx_main_v59 i) = ix1 (i 1) := funext fun a => by
    match a with
    | ⟨0, _⟩ => rfl
  refine congrArg₂ (· + ·) (Finset.sum_congr rfl fun k _ => ?_) ?_
  · exact congrArg₂ (· * ·) (congrArg y (e1 k).symm) (congrArg x6 (e2 k).symm)
  · exact (hb (i 1)).trans (congrArg x7 e3.symm)

end Cert.ReferenceIdeal.RefLin

end
-- ==== Proof.RegionValue.lean ====
/-
  The two dense layers' regions, read as whole arrays.

  Each region runs over ten row blocks of 5000 rows.  At point `t` the body reads rows `5000 t … 5000 t + 4999` of its first
  operand, the whole 256×256 weight and the whole bias row, and leaves in the result's block, at entry `(p, q)`,
  `∑ k, x (p, k) · W (k, q) + b (0, q)` (in the second region with `max x 0` for `x`): on the extended reals the roundings to
  bf16 are identities, the casts are to the same shape, and a matrix product into a zero accumulator is the plain sum over the
  contracted axis.  An element of a block sits in its array at block index × block size + its coordinate in the block, and the
  block indices are `(t, 0)` for the row-blocked windows and `(0, 0)` for the whole ones; so what point `t` writes back is
  block `t` of ONE function of the whole operand arrays, `Cert.LinSpec.lin`.  Row `r` lies in the block of point `r / 5000`,
  every point writes its block back, hence at the region's exit the result array is that function.
-/
import proofs.«151953_j7078106104245_2_alg».proof.Proof.Gen.KernelIdeal.Frame
import proofs.«151953_j7078106104245_2_alg».proof.Proof.LinSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

/-! ## The matrix product of a block at an index -/

/-- The left operand's row coordinate at a contraction position is the output's row. -/
theorem lhs_row (i : S5000x256.Idx) (k : dot_S5000x256_S256x256_S5000x256_1_0_0_1_n_n.contr.Idx) :
    (dot_S5000x256_S256x256_S5000x256_1_0_0_1_n_n.lhsIdx i k 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl

/-- The right operand's column coordinate at a contraction position is the output's column. -/
theorem rhs_col (i : S5000x256.Idx) (k : dot_S5000x256_S256x256_S5000x256_1_0_0_1_n_n.contr.Idx) :
    (dot_S5000x256_S256x256_S5000x256_1_0_0_1_n_n.rhsIdx i k 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A block's matrix product into a zero accumulator, at entry `(p, q)`: row `p` of the left operand against column
    `q` of the right one, summed over the one contracted axis. -/
theorem matmul_at {φ₁ φ₂ : FTy} (a : FVec Ideal S5000x256 φ₁) (b : FVec Ideal S256x256 φ₂) (p : Fin 5000) (q : Fin 256) :
    matmul dot_S5000x256_S256x256_S5000x256_1_0_0_1_n_n none a b (constant (F := Ideal) S5000x256 .f32 0x00000000#32) (ix2 p q)
      = ∑ k : Fin 256, a (ix2 p k) * b (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact lhs_row _ _
    | ⟨1, _⟩ => exact (dot_S5000x256_S256x256_S5000x256_1_0_0_1_n_n.lhsIdx_val_of_single rfl _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (dot_S5000x256_S256x256_S5000x256_1_0_0_1_n_n.rhsIdx_val_of_single rfl _ _).trans hk
    | ⟨1, _⟩ => exact rhs_col _ _)
  rw [el, er]

/-! ## The two payloads at an index -/

/-- The first layer's payload at entry `(p, q)` of a block: the block's row `p` against the weight's column `q`, plus the
    bias row's entry `q` (the roundings are identities on the extended reals, the casts are to the same shape). -/
theorem pay0_at (x0 : Vec Ideal S5000x256 .f32) (x1 : Vec Ideal S256x256 .f32) (x2 : Vec Ideal S1x256 .f32) (p : Fin 5000) (q : Fin 256) :
    k0_pay1 (F := Ideal) x0 x1 x2 (ix2 p q) = (∑ k : Fin 256, x0 (ix2 p k) * x1 (ix2 k q)) + x2 (ix2 (0 : Fin 1) q) := by
  unfold k0_pay1
  rw [addf_apply, matmul_at, shapeCast_self, shapeCast_self, broadcastTo_1b_ab_apply]
  rfl

/-- The second layer's payload at entry `(p, q)`: the same with each entry of the block first raised to at least the
    zero word's value. -/
theorem pay1_at (x0 : Vec Ideal S5000x256 .f32) (x1 : Vec Ideal S256x256 .f32) (x2 : Vec Ideal S1x256 .f32) (p : Fin 5000) (q : Fin 256) :
    k1_pay1 (F := Ideal) x0 x1 x2 (ix2 p q)
      = (∑ k : Fin 256, max (x0 (ix2 p k)) (FloatOps.ofBits (F := Ideal) .f32 0x00000000#32) * x1 (ix2 k q)) + x2 (ix2 (0 : Fin 1) q) := by
  unfold k1_pay1
  rw [addf_apply, matmul_at, shapeCast_self, shapeCast_self, broadcastTo_1b_ab_apply]
  rfl

/-! ## The first layer's region: what each point writes back, and the array it leaves -/

/-- The zero offsets of a whole-buffer access, as a constant function. -/
theorem zero_offsets : (![0, 0] : Fin 2 → Nat) = fun _ => 0 := funext fun a => by fin_cases a <;> rfl

/-- The windows' index maps over the grid: the input rows' window moves with the output's, block `t` at point `t`, always in
    column block 0; the weight's and the bias row's windows stay at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

example : Pipeline.arrRef spec0 0 = main_v7 := rfl
example : Pipeline.arrRef spec0 1 = main_arg4 := rfl
example : Pipeline.arrRef spec0 2 = main_v19 := rfl
example : Pipeline.arrRef spec0 3 = main_v20 := rfl

/-- Point `t` writes back block `t` of the layer's whole-array function of the region's three operands. -/
theorem flushed0_eq (c : Dev nD) (t : Fin cfg0.N) :
    (dat0 (F := Ideal) V c).flushed 3 t
      = ((cfg0.win 3).blk t).view.read (Elt Ideal) (Cert.LinSpec.lin (V c main_v7) (V c main_arg4) (V c main_v19)) := by
  show (cfg0.win 3).cut (grid0.coords t) ((dat0 V c).after 3 t) = _
  rw [after0_3]
  unfold out0_3
  rw [View.canon_unit_zero zero_offsets]
  simp only [View.ld_unit_zero (S := S5000x256) zero_offsets, View.ld_unit_zero (S := S256x256) zero_offsets, View.ld_unit_zero (S := S1x256) zero_offsets]
  obtain ⟨e00, e01, e10, e11, e20, e21, e30, e31⟩ := idx0 t
  have key : ∀ (p : Fin 5000) (q : Fin 256),
      k0_pay1 (F := Ideal) (iblk0 V c 0 t) (iblk0 V c 1 t) (iblk0 V c 2 t) (ix2 p q)
        = Cert.LinSpec.lin (V c main_v7) (V c main_arg4) (V c main_v19) (((cfg0.win 3).blk t).view.emb (ix2 p q)) := by
    intro p q
    refine (pay0_at _ _ _ p q).trans ?_
    unfold Cert.LinSpec.lin
    refine congrArg₂ (· + ·) (Finset.sum_congr rfl fun k _ => congrArg₂ (· * ·) ?_ ?_) ?_
    · show V c main_v7 (((cfg0.win 0).blk t).view.emb (ix2 p k)) = V c main_v7 _
      refine congrArg _ (funext fun a => Fin.ext ?_)
      match a with
      | ⟨0, _⟩ => show win0_0.index t (0 : Fin 2) * 5000 + 1 * p.val = win0_3.index t (0 : Fin 2) * 5000 + 1 * p.val; omega
      | ⟨1, _⟩ => show win0_0.index t (1 : Fin 2) * 256 + 1 * k.val = k.val; omega
    · show V c main_arg4 (((cfg0.win 1).blk t).view.emb (ix2 k q)) = V c main_arg4 _
      refine congrArg _ (funext fun a => Fin.ext ?_)
      match a with
      | ⟨0, _⟩ => show win0_1.index t (0 : Fin 2) * 256 + 1 * k.val = k.val; omega
      | ⟨1, _⟩ => show win0_1.index t (1 : Fin 2) * 256 + 1 * q.val = win0_3.index t (1 : Fin 2) * 256 + 1 * q.val; omega
    · show V c main_v19 (((cfg0.win 2).blk t).view.emb (ix2 (0 : Fin 1) q)) = V c main_v19 _
      refine congrArg _ (funext fun a => Fin.ext ?_)
      match a with
      | ⟨0, _⟩ => show win0_2.index t (0 : Fin 2) * 1 + 1 * 0 = 0; omega
      | ⟨1, _⟩ => show win0_2.index t (1 : Fin 2) * 256 + 1 * q.val = win0_3.index t (1 : Fin 2) * 256 + 1 * q.val; omega
  funext j
  exact (congrArg _ (eq_ix2 j)).trans ((key (j 0) (j 1)).trans (congrArg _ (congrArg _ (eq_ix2 j).symm)))
end

/-- An index of the result array is in point `t`'s block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v20).slice (win0_3.rect t)).set ↔ _
  rw [View.set_slice_whole, Rect.mem_set_unit]
  exact Iff.rfl

/-- Every entry of the result array is written back by some point: row `r` by point `r / 5000`. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : grid0.N = 10 := N_0
  let t : Fin cfg0.N := ⟨(i 0).val / 5000, by show (i 0).val / 5000 < grid0.N; omega⟩
  obtain ⟨-, -, -, -, -, -, e30, e31⟩ := idx0 t
  have e30' : win0_3.index t (0 : Fin 2) = (i 0).val / 5000 := e30
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- THE FIRST LAYER'S RESULT ARRAY at the region's exit: `x · W + b` of the region's three operands as it found them. -/
theorem arr0 (V : (c : Dev nD) → (b : Ref sig .tc) → Buf (Elt Ideal) ((c : Thread nD τ).loc b)) (c : Dev nD) :
    (dat0 (F := Ideal) V c).arrAt 3 cfg0.N = Cert.LinSpec.lin (V c main_v7) (V c main_arg4) (V c main_v19) :=
  (dat0 (F := Ideal) V c).arrAt_eq_of_cover 3 (Cert.LinSpec.lin (V c main_v7) (V c main_arg4) (V c main_v19))
    (fun t _ => flushed0_eq V c t) cover0

/-! ## The second layer's region -/

/-- The second region's index maps over its grid: as the first region's. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

example : Pipeline.arrRef spec1 0 = main_v53 := rfl
example : Pipeline.arrRef spec1 1 = main_arg6 := rfl
example : Pipeline.arrRef spec1 2 = main_v54 := rfl
example : Pipeline.arrRef spec1 3 = main_v55 := rfl

/-- Point `t` writes back block `t` of the layer's whole-array function of the region's operands, the first one raised
    entrywise to at least the zero word's value. -/
theorem flushed1_eq (c : Dev nD) (t : Fin cfg1.N) :
    (dat1 (F := Ideal) V c).flushed 3 t
      = ((cfg1.win 3).blk t).view.read (Elt Ideal) (Cert.LinSpec.lin (Cert.LinSpec.relu (V c main_v53)) (V c main_arg6) (V c main_v54)) := by
  show (cfg1.win 3).cut (grid1.coords t) ((dat1 V c).after 3 t) = _
  rw [after1_3]
  unfold out1_3
  rw [View.canon_unit_zero zero_offsets]
  simp only [View.ld_unit_zero (S := S5000x256) zero_offsets, View.ld_unit_zero (S := S256x256) zero_offsets, View.ld_unit_zero (S := S1x256) zero_offsets]
  obtain ⟨e00, e01, e10, e11, e20, e21, e30, e31⟩ := idx1 t
  have key : ∀ (p : Fin 5000) (q : Fin 256),
      k1_pay1 (F := Ideal) (iblk1 V c 0 t) (iblk1 V c 1 t) (iblk1 V c 2 t) (ix2 p q)
        = Cert.LinSpec.lin (Cert.LinSpec.relu (V c main_v53)) (V c main_arg6) (V c main_v54) (((cfg1.win 3).blk t).view.emb (ix2 p q)) := by
    intro p q
    refine (pay1_at _ _ _ p q).trans ?_
    unfold Cert.LinSpec.lin
    refine congrArg₂ (· + ·) (Finset.sum_congr rfl fun k _ => congrArg₂ (· * ·) ?_ ?_) ?_
    · show Cert.LinSpec.relu (V c main_v53) (((cfg1.win 0).blk t).view.emb (ix2 p k)) = Cert.LinSpec.relu (V c main_v53) _
      refine congrArg _ (funext fun a => Fin.ext ?_)
      match a with
      | ⟨0, _⟩ => show win1_0.index t (0 : Fin 2) * 5000 + 1 * p.val = win1_3.index t (0 : Fin 2) * 5000 + 1 * p.val; omega
      | ⟨1, _⟩ => show win1_0.index t (1 : Fin 2) * 256 + 1 * k.val = k.val; omega
    · show V c main_arg6 (((cfg1.win 1).blk t).view.emb (ix2 k q)) = V c main_arg6 _
      refine congrArg _ (funext fun a => Fin.ext ?_)
      match a with
      | ⟨0, _⟩ => show win1_1.index t (0 : Fin 2) * 256 + 1 * k.val = k.val; omega
      | ⟨1, _⟩ => show win1_1.index t (1 : Fin 2) * 256 + 1 * q.val = win1_3.index t (1 : Fin 2) * 256 + 1 * q.val; omega
    · show V c main_v54 (((cfg1.win 2).blk t).view.emb (ix2 (0 : Fin 1) q)) = V c main_v54 _
      refine congrArg _ (funext fun a => Fin.ext ?_)
      match a with
      | ⟨0, _⟩ => show win1_2.index t (0 : Fin 2) * 1 + 1 * 0 = 0; omega
      | ⟨1, _⟩ => show win1_2.index t (1 : Fin 2) * 256 + 1 * q.val = win1_3.index t (1 : Fin 2) * 256 + 1 * q.val; omega
  funext j
  exact (congrArg _ (eq_ix2 j)).trans ((key (j 0) (j 1)).trans (congrArg _ (congrArg _ (eq_ix2 j).symm)))
end

/-- An index of the second result array is in point `t`'s block iff each coordinate is in the block's range on its axis. -/
theorem mem_blk1 (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v55).slice (win1_3.rect t)).set ↔ _
  rw [View.set_slice_whole, Rect.mem_set_unit]
  exact Iff.rfl

/-- Every entry of the second result array is written back by some point: row `r` by point `r / 5000`. -/
theorem cover1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : grid1.N = 10 := N_1
  let t : Fin cfg1.N := ⟨(i 0).val / 5000, by show (i 0).val / 5000 < grid1.N; omega⟩
  obtain ⟨-, -, -, -, -, -, e30, e31⟩ := idx1 t
  have e30' : win1_3.index t (0 : Fin 2) = (i 0).val / 5000 := e30
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- THE SECOND LAYER'S RESULT ARRAY at the region's exit: `max x 0 · W + b` of the region's three operands as it found them. -/
theorem arr1 (V : (c : Dev nD) → (b : Ref sig .tc) → Buf (Elt Ideal) ((c : Thread nD τ).loc b)) (c : Dev nD) :
    (dat1 (F := Ideal) V c).arrAt 3 cfg1.N = Cert.LinSpec.lin (Cert.LinSpec.relu (V c main_v53)) (V c main_arg6) (V c main_v54) :=
  (dat1 (F := Ideal) V c).arrAt_eq_of_cover 3 (Cert.LinSpec.lin (Cert.LinSpec.relu (V c main_v53)) (V c main_arg6) (V c main_v54))
    (fun t _ => flushed1_eq V c t) cover1

end Cert.KernelIdeal.RegionValue

end
-- ==== Proof.HostB.lean ====
/-
  From the first region's exit to the second region's entry.

  The first region writes only its result array, which its write-backs leave at `lin` of the summed embeddings, the first
  weight and the bias row — the reference's first layer.  The second stretch of host operations then combines that
  layer over the edges; it is the reference's own sequence of operations, applied to buffers that hold the reference's
  stages, so its result is the reference's stage again.
-/
import proofs.«151953_j7078106104245_2_alg».proof.Proof.Gen.KernelIdeal.Frame
import proofs.«151953_j7078106104245_2_alg».proof.Proof.Gen.ReferenceIdeal.Read
import Idealize.ShloMosaic.Lib.ValueLayout
import proofs.«151953_j7078106104245_2_alg».proof.Proof.HostA
import proofs.«151953_j7078106104245_2_alg».proof.Proof.RefLin
import proofs.«151953_j7078106104245_2_alg».proof.Proof.RegionValue

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## At the first region's exit -/

/-- The first region's result array is the reference's first layer: its write-backs leave `lin` of the summed
    embeddings, the first weight and the bias row, which is the reference's contraction plus broadcast bias. -/
theorem W2_v20 (c : Dev nD) : W2 (F := Ideal) m ρ c (Proc.devRef .tc main_v20) = Cert.ReferenceIdeal.Read.val_main_v22 (F := Ideal) (m ((c : Thread nD τ).loc main_arg0)) (m ((c : Thread nD τ).loc main_arg3)) (m ((c : Thread nD τ).loc main_arg4)) (m ((c : Thread nD τ).loc main_arg5)) := by
  refine (W2_arr (F := Ideal) m ρ c 3).trans ?_
  rw [Cert.KernelIdeal.RegionValue.arr0 (V1 m ρ) c]
  show Cert.LinSpec.lin (W1 (F := Ideal) m ρ c (Proc.devRef .tc main_v7)) (W1 (F := Ideal) m ρ c (Proc.devRef .tc main_arg4)) (W1 (F := Ideal) m ρ c (Proc.devRef .tc main_v19)) = _
  rw [W1_v7, W1_arg4]
  exact Cert.ReferenceIdeal.RefLin.layer0 _ _ _ _ _ (fun j => W1_v19 m ρ c j)

/-! The region writes its result array only: every other buffer is as it was entered. -/
theorem W2_v9 (c : Dev nD) : W2 (F := Ideal) m ρ c (Proc.devRef .tc main_v9) = Cert.ReferenceIdeal.Read.val_main_v9 (F := Ideal) (m ((c : Thread nD τ).loc main_arg1)) :=
  (W2_of_ne m ρ c main_v9 (by decide)).trans (W1_v9 m ρ c)
theorem W2_v11 (c : Dev nD) : W2 (F := Ideal) m ρ c (Proc.devRef .tc main_v11) = Cert.ReferenceIdeal.Read.val_main_v11 (F := Ideal) (m ((c : Thread nD τ).loc main_arg1)) :=
  (W2_of_ne m ρ c main_v11 (by decide)).trans (W1_v11 m ρ c)
theorem W2_v18 (c : Dev nD) : W2 (F := Ideal) m ρ c (Proc.devRef .tc main_v18) = Cert.ReferenceIdeal.Read.val_main_v18 (F := Ideal) (m ((c : Thread nD τ).loc main_arg1)) :=
  (W2_of_ne m ρ c main_v18 (by decide)).trans (W1_v18 m ρ c)
theorem W2_arg2 (c : Dev nD) : W2 (F := Ideal) m ρ c (Proc.devRef .tc main_arg2) = (m ((c : Thread nD τ).loc main_arg2)) :=
  (W2_of_ne m ρ c main_arg2 (by decide)).trans (W1_arg2 m ρ c)
theorem W2_arg6 (c : Dev nD) : W2 (F := Ideal) m ρ c (Proc.devRef .tc main_arg6) = (m ((c : Thread nD τ).loc main_arg6)) :=
  (W2_of_ne m ρ c main_arg6 (by decide)).trans (W1_arg6 m ρ c)
theorem W2_arg7 (c : Dev nD) : W2 (F := Ideal) m ρ c (Proc.devRef .tc main_arg7) = (m ((c : Thread nD τ).loc main_arg7)) :=
  (W2_of_ne m ρ c main_arg7 (by decide)).trans (W1_arg7 m ρ c)

/-! ## After the second stretch -/

/-- The first combination over the edges — gather the layer's rows at the sources, scale each by the product of the two
    ends' normalizers, scatter-add at the targets, add the self-loop term — is the same composition of operations in
    both programs, applied here to buffers that hold the reference's stages. -/
theorem W3_v53 (c : Dev nD) : W3 (F := Ideal) m ρ c (Proc.devRef .tc main_v53) = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v53) = _
  after_results_simp
  rw [W2_v20, W2_v9, W2_v11, W2_v18]
  rfl

/-- The second bias as a 1×256 row. -/
theorem W3_v54 (c : Dev nD) (j : Fin 256) :
    W3 (F := Ideal) m ρ c (Proc.devRef .tc main_v54) (ValueIdx.ix2 (0 : Fin 1) j) = (m ((c : Thread nD τ).loc main_arg7)) (ValueIdx.ix1 j) := by
  show StableHlo.after hostOps1 (W2 m ρ c) (Proc.devRef .tc main_v54) _ = _
  after_results_simp
  rw [W2_arg7]
  exact ValueIdx.shapeCast_a_1a_apply (a := 256) (m ((c : Thread nD τ).loc main_arg7)) shapeCasts_S256_S1x256 (0 : Fin 1) j

theorem W3_v9 (c : Dev nD) : W3 (F := Ideal) m ρ c (Proc.devRef .tc main_v9) = Cert.ReferenceIdeal.Read.val_main_v9 (F := Ideal) (m ((c : Thread nD τ).loc main_arg1)) := by
  refine Eq.trans ?_ (W2_v9 m ρ c)
  show StableHlo.after hostOps1 (W2 m ρ c) (Proc.devRef .tc main_v9) = _
  not_written hostOps1
theorem W3_v11 (c : Dev nD) : W3 (F := Ideal) m ρ c (Proc.devRef .tc main_v11) = Cert.ReferenceIdeal.Read.val_main_v11 (F := Ideal) (m ((c : Thread nD τ).loc main_arg1)) := by
  refine Eq.trans ?_ (W2_v11 m ρ c)
  show StableHlo.after hostOps1 (W2 m ρ c) (Proc.devRef .tc main_v11) = _
  not_written hostOps1
theorem W3_v18 (c : Dev nD) : W3 (F := Ideal) m ρ c (Proc.devRef .tc main_v18) = Cert.ReferenceIdeal.Read.val_main_v18 (F := Ideal) (m ((c : Thread nD τ).loc main_arg1)) := by
  refine Eq.trans ?_ (W2_v18 m ρ c)
  show StableHlo.after hostOps1 (W2 m ρ c) (Proc.devRef .tc main_v18) = _
  not_written hostOps1
theorem W3_arg2 (c : Dev nD) : W3 (F := Ideal) m ρ c (Proc.devRef .tc main_arg2) = (m ((c : Thread nD τ).loc main_arg2)) := by
  refine Eq.trans ?_ (W2_arg2 m ρ c)
  show StableHlo.after hostOps1 (W2 m ρ c) (Proc.devRef .tc main_arg2) = _
  not_written hostOps1
theorem W3_arg6 (c : Dev nD) : W3 (F := Ideal) m ρ c (Proc.devRef .tc main_arg6) = (m ((c : Thread nD τ).loc main_arg6)) := by
  refine Eq.trans ?_ (W2_arg6 m ρ c)
  show StableHlo.after hostOps1 (W2 m ρ c) (Proc.devRef .tc main_arg6) = _
  not_written hostOps1

end Cert.KernelIdeal.Chain

end
-- ==== Proof.LibCalledOps.lean ====
/-
  An operation of a called (module-local) function, at LITERAL buffers, is the plain operation at those buffers.

  A called function's operations are written over references that carry the tensor type, and move the operation's
  function to the buffers' own types along an equation between the two types. When the buffers are given, the
  carried type is the buffer's own and that equation is reflexivity, so the transports are identities and the
  operation is the plain one. The statements below say so for an operation of each arity, with the operation's
  FUNCTION A VARIABLE: instantiating one at a function whose definition is a fold over a large array (a window sum
  over a million entries, a scatter) then never opens that definition, where comparing the two spellings of the
  operation directly may walk into it.

  Use: `(binary_of ra rb ry (by decide) rfl (by decide) rfl (by decide) rfl _ : TRef.binary (.of ra) (.of rb) (.of ry) f = binary ra rb ry f)`,
  then rewrite the called operations of an operation list with such equations and read the list with the usual lemmas.
-/
import Idealize.ShloMosaic.Lib.StableHlo

namespace Idealize.ShloMosaic.StableHlo.TRef

variable {τ : Topo} {sig : RefSig} {Val : EltTy → Type}

/-- A called function's constant at a literal buffer is the plain constant. -/
theorem nullary_of (ry : Ref sig .tc) (hy1 : ry.space ≠ .host) (hy2 : ry.isScoped = false) (v : ry.ty.Contents Val) :
    (TRef.nullary (TRef.of ry rfl hy1 hy2) v : HloOp τ sig Val) = StableHlo.nullary ry v ⟨hy1, hy2⟩ := rfl

/-- A called function's one-operand operation at literal buffers is the plain operation. -/
theorem unary_of (rx ry : Ref sig .tc) (hx1 : rx.space ≠ .host) (hx2 : rx.isScoped = false)
    (hy1 : ry.space ≠ .host) (hy2 : ry.isScoped = false) (f : rx.ty.Contents Val → ry.ty.Contents Val) :
    (TRef.unary (TRef.of rx rfl hx1 hx2) (TRef.of ry rfl hy1 hy2) f : HloOp τ sig Val)
      = StableHlo.unary rx ry f ⟨hx1, hx2⟩ ⟨hy1, hy2⟩ := rfl

/-- A called function's two-operand operation at literal buffers is the plain operation. -/
theorem binary_of (ra rb ry : Ref sig .tc)
    (ha1 : ra.space ≠ .host) (ha2 : ra.isScoped = false) (hb1 : rb.space ≠ .host) (hb2 : rb.isScoped = false)
    (hy1 : ry.space ≠ .host) (hy2 : ry.isScoped = false)
    (f : ra.ty.Contents Val → rb.ty.Contents Val → ry.ty.Contents Val) :
    (TRef.binary (TRef.of ra rfl ha1 ha2) (TRef.of rb rfl hb1 hb2) (TRef.of ry rfl hy1 hy2) f : HloOp τ sig Val)
      = StableHlo.binary ra rb ry f ⟨ha1, ha2⟩ ⟨hb1, hb2⟩ ⟨hy1, hy2⟩ := rfl

/-- A called function's three-operand operation at literal buffers is the plain operation. -/
theorem ternary_of (rc ra rb ry : Ref sig .tc)
    (hc1 : rc.space ≠ .host) (hc2 : rc.isScoped = false) (ha1 : ra.space ≠ .host) (ha2 : ra.isScoped = false)
    (hb1 : rb.space ≠ .host) (hb2 : rb.isScoped = false) (hy1 : ry.space ≠ .host) (hy2 : ry.isScoped = false)
    (f : rc.ty.Contents Val → ra.ty.Contents Val → rb.ty.Contents Val → ry.ty.Contents Val) :
    (TRef.ternary (TRef.of rc rfl hc1 hc2) (TRef.of ra rfl ha1 ha2) (TRef.of rb rfl hb1 hb2) (TRef.of ry rfl hy1 hy2) f : HloOp τ sig Val)
      = StableHlo.ternary rc ra rb ry f ⟨hc1, hc2⟩ ⟨ha1, ha2⟩ ⟨hb1, hb2⟩ ⟨hy1, hy2⟩ := rfl

end Idealize.ShloMosaic.StableHlo.TRef
-- ==== Proof.HostC.lean ====
/-
  From the second region's exit to the return.

  The second region writes only its result array, which its write-backs leave at `lin` of the rectified first
  combination, the second weight and the second bias row — the reference's second layer.  The closing stretches (the
  second combination over the edges, the called rectifier, the sum of the nodes' rows into their graphs' rows) are the
  reference's own operations on buffers holding the reference's stages, so the result buffer ends at the reference's
  result stage of the arguments.
-/
import proofs.«151953_j7078106104245_2_alg».proof.Proof.Gen.KernelIdeal.Frame
import proofs.«151953_j7078106104245_2_alg».proof.Proof.Gen.ReferenceIdeal.Read
import Idealize.ShloMosaic.Lib.ValueLayout
import proofs.«151953_j7078106104245_2_alg».proof.Proof.HostB
import proofs.«151953_j7078106104245_2_alg».proof.Proof.LibCalledOps

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## At the second region's exit -/

/-- The second region's result array is the reference's second layer, applied to the rectified first combination. -/
theorem W4_v55 (c : Dev nD) : W4 (F := Ideal) m ρ c (Proc.devRef .tc main_v55) = Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr (F := Ideal) m ρ c 3).trans ?_
  rw [Cert.KernelIdeal.RegionValue.arr1 (V3 m ρ) c]
  show Cert.LinSpec.lin (Cert.LinSpec.relu (W3 (F := Ideal) m ρ c (Proc.devRef .tc main_v53))) (W3 (F := Ideal) m ρ c (Proc.devRef .tc main_arg6)) (W3 (F := Ideal) m ρ c (Proc.devRef .tc main_v54)) = _
  rw [W3_v53, W3_arg6]
  exact Cert.ReferenceIdeal.RefLin.layer1 _ _ _ _ _ _ _ _ (fun j => W3_v54 m ρ c j)

theorem W4_v9 (c : Dev nD) : W4 (F := Ideal) m ρ c (Proc.devRef .tc main_v9) = Cert.ReferenceIdeal.Read.val_main_v9 (F := Ideal) (m ((c : Thread nD τ).loc main_arg1)) :=
  (W4_of_ne m ρ c main_v9 (by decide)).trans (W3_v9 m ρ c)
theorem W4_v11 (c : Dev nD) : W4 (F := Ideal) m ρ c (Proc.devRef .tc main_v11) = Cert.ReferenceIdeal.Read.val_main_v11 (F := Ideal) (m ((c : Thread nD τ).loc main_arg1)) :=
  (W4_of_ne m ρ c main_v11 (by decide)).trans (W3_v11 m ρ c)
theorem W4_v18 (c : Dev nD) : W4 (F := Ideal) m ρ c (Proc.devRef .tc main_v18) = Cert.ReferenceIdeal.Read.val_main_v18 (F := Ideal) (m ((c : Thread nD τ).loc main_arg1)) :=
  (W4_of_ne m ρ c main_v18 (by decide)).trans (W3_v18 m ρ c)
theorem W4_arg2 (c : Dev nD) : W4 (F := Ideal) m ρ c (Proc.devRef .tc main_arg2) = (m ((c : Thread nD τ).loc main_arg2)) :=
  (W4_of_ne m ρ c main_arg2 (by decide)).trans (W3_arg2 m ρ c)

/-! ## At the return -/

/-- The three operations of the called rectifier, at this call's buffers, are the plain operations at those buffers (the
    typed references carry each buffer's own type, so the transports between the two spellings are identities). -/
theorem hostOps2_1_plain : (hostOps2_1 : List (HloOp τ sig (Elt Ideal))) =
    [ StableHlo.nullary main_call0_cst (constant (F := Ideal) S_ .f32 0x00000000#32),
      StableHlo.unary main_call0_cst main_call0_v0 (broadcastInDim S50000x256 ![] bcast_S_S50000x256 : (⟨S_, .f32⟩ : BufTy).Contents (Elt Ideal) → (⟨S50000x256, .f32⟩ : BufTy).Contents (Elt Ideal)),
      StableHlo.binary main_v88 main_call0_v0 main_v89 (maximumf (F := Ideal) (s := S50000x256) (φ := .f32)) ] :=
  congrArg₂ List.cons (StableHlo.TRef.nullary_of main_call0_cst (by decide) rfl _)
    (congrArg₂ List.cons (StableHlo.TRef.unary_of main_call0_cst main_call0_v0 (by decide) rfl (by decide) rfl _)
      (congrArg₂ List.cons (StableHlo.TRef.binary_of main_v88 main_call0_v0 main_v89 (by decide) rfl (by decide) rfl (by decide) rfl _) rfl))

/-- The closing stretches — the second combination over the edges, the maximum with zero, the sum of the nodes' rows
    into their graphs' rows — are again the same composition of operations in both programs: the result buffer holds the
    reference's result stage of the arguments. -/
theorem W7_v92 (c : Dev nD) : W7 (F := Ideal) m ρ c (Proc.devRef .tc main_v92) = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2_2 (StableHlo.after hostOps2_1 (StableHlo.after hostOps2 (W4 m ρ c))) (Proc.devRef .tc main_v92) = _
  rw [hostOps2_1_plain]
  after_results_simp
  rw [W4_v55, W4_v9, W4_v11, W4_v18, W4_arg2]
  rfl

end Cert.KernelIdeal.Chain

end
-- ==== Proof.lean ====
/-
  The kernel (a two-layer graph convolution: embedding sums, two dense layers as row-blocked regions, a normalized
  gather / scatter-add over the edges after each, a final maximum with zero and a sum of the nodes' rows into their
  graphs' rows) against its plain reference, at the ideal instance.

  The two programs are the same composition of host operations around two dense layers.  In the kernel a dense layer is a
  region over ten blocks of 5000 rows: each block is rounded to bf16 (the identity on the extended reals), multiplied into a
  zero accumulator and offset by the bias row; the second region first takes the maximum with zero.  In the reference it is
  one contraction over the shared axis plus the bias broadcast down the rows, the maximum taken by a separate host
  operation.  Entry by entry both are `∑ k, x (r, k) · W (k, j) + b j` (`LinSpec.lin`): the regions' write-backs cover the
  result array block by block (`RegionValue`), the reference's stages read at an index give the same sum (`RefLin`).
  No law that needs finiteness is used — sums and products are only re-read, never rearranged — so the precondition is
  never opened.  Everything around the layers is carried buffer by buffer through the kernel's segments
  (`HostA`, `HostB`, `HostC`): each stretch applies to buffers holding the reference's stages exactly the operations the
  reference applies, so the result buffer ends at the reference's result stage of the arguments (`Chain.W7_v92`).

  The claims: the three frames are the generated ones (the reference's is its run with the result dropped); the
  idealization rewrote no operation, so `preserves` is `True`; `algebraic` pairs the kernel's run with its result named
  (`RunValue.run_named`) and the reference's generated run, whose results are one function of arguments that agree.
-/
import proofs.«151953_j7078106104245_2_alg».proof.Defs
import proofs.«151953_j7078106104245_2_alg».proof.Proof.Gen.Kernel
import proofs.«151953_j7078106104245_2_alg».proof.Proof.Gen.Kernel.Skeleton
import proofs.«151953_j7078106104245_2_alg».proof.Proof.Gen.Kernel.Launch
import proofs.«151953_j7078106104245_2_alg».proof.Proof.Gen.Kernel.Points
import proofs.«151953_j7078106104245_2_alg».proof.Proof.Gen.Kernel.Frame
import proofs.«151953_j7078106104245_2_alg».proof.Proof.Gen.KernelIdeal
import proofs.«151953_j7078106104245_2_alg».proof.Proof.Gen.KernelIdeal.Skeleton
import proofs.«151953_j7078106104245_2_alg».proof.Proof.Gen.KernelIdeal.Launch
import proofs.«151953_j7078106104245_2_alg».proof.Proof.Gen.KernelIdeal.Points
import proofs.«151953_j7078106104245_2_alg».proof.Proof.Gen.KernelIdeal.Frame
import proofs.«151953_j7078106104245_2_alg».proof.Proof.Gen.ReferenceIdeal
import proofs.«151953_j7078106104245_2_alg».proof.Proof.Gen.Pre_finite_inputs
import proofs.«151953_j7078106104245_2_alg».proof.Proof.Gen.ReferenceIdeal.Run
import proofs.«151953_j7078106104245_2_alg».proof.Proof.Gen.ReferenceIdeal.Read
import proofs.«151953_j7078106104245_2_alg».proof.Proof.RunValue
import proofs.«151953_j7078106104245_2_alg».proof.Proof.HostC
import Idealize.ShloMosaic.Adequacy
import Idealize.ShloMosaic.Init

noncomputable section

namespace Cert.Proof

open Idealize.ShloMosaic Idealize.SL.Sem

/-- The word-level kernel runs and leaves its arguments as launched: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel likewise. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result at the reference's result stage of the arguments: the kernel's by the chain through
    its segments, the reference's by its generated run; the arguments agree, so the two results are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W7 (F := Ideal) m ρ c (Proc.devRef .tc Cert.KernelIdeal.main_v92),
    Cert.KernelIdeal.RunValue.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.Chain.W7_v92 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
